-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_denom" .f32 0xC1480000#32 ((-67108864 / 5368709 : ℝ) : EReal)
  ∧ IdealRules.named_const.Statement Cert.KernelIdeal.κ "inv_denom" .f32 0xC1480000#32 ((-67108864 / 5368709 : ℝ) : EReal)
  ∧ IdealRules.named_const.Statement Cert.KernelIdeal.κ "inv_denom" .f32 0xC1480000#32 ((-67108864 / 5368709 : ℝ) : EReal)
  ∧ IdealRules.named_const.Statement Cert.KernelIdeal.κ "inv_denom" .f32 0xC1480000#32 ((-67108864 / 5368709 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S1x64x4 : Shape := ⟨3, ![1, 64, 4]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S1x64x4 : S_.BroadcastsInDim S1x64x4 (![] : Fin 0 → Fin S1x64x4.rank)
  reducesTo_S1x64x4_S_d0_1_2 : S1x64x4.ReducesTo [0, 1, 2] S_

variable [Facts]

def fn {F : FTy → Type} [FloatOps F] (main_arg0 : FVec F S50000x3 .f32) (main_arg1 : IVec S50000x3 32) (main_arg2 : FVec F S1x64x4 .f32) (main_arg3 : FVec F S1x64x4 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S1x64x4 .f32 := Host.absf main_arg2
  let main_cst_0 : FVec F S_ .f32 := constant S_ .f32 0x7F800000#32
  let main_v5 : FVec F S1x64x4 .f32 := broadcastInDim S1x64x4 ![] bcast_S_S1x64x4 main_cst_0
  let main_v6 : IVec S1x64x4 1 := cmpf .olt main_v4 main_v5
  let main_c_1 : IVec S_ 1 := constantI S_ 1 1#1
  let main_v7 : IVec S_ 1 := (fun x v => Host.reduce IntOp.andi x v reducesTo_S1x64x4_S_d0_1_2 h_S_) main_v6 main_c_1
  let main_v8 : IVec S_ 1 := andi main_v3 main_v7
  let main_v9 : FVec F S1x64x4 .f32 := Host.absf main_arg3
  let main_cst_2 : FVec F S_ .f32 := constant S_ .f32 0x7F800000#32
  let main_v10 : FVec F S1x64x4 .f32 := broadcastInDim S1x64x4 ![] bcast_S_S1x64x4 main_cst_2
  let main_v11 : IVec S1x64x4 1 := cmpf .olt main_v9 main_v10
  let main_c_3 : IVec S_ 1 := constantI S_ 1 1#1
  let main_v12 : IVec S_ 1 := (fun x v => Host.reduce IntOp.andi x v reducesTo_S1x64x4_S_d0_1_2 h_S_) main_v11 main_c_3
  let main_v13 : IVec S_ 1 := andi main_v8 main_v12
  main_v13
-- ==== Kernel.lean ====
abbrev S50000x3 : Shape := ⟨2, ![50000, 3]⟩
abbrev S1x64x4 : Shape := ⟨3, ![1, 64, 4]⟩
abbrev S3x64x4 : Shape := ⟨3, ![3, 64, 4]⟩
abbrev S_ : Shape := ⟨0, ![]⟩
abbrev S50000x3x1 : Shape := ⟨3, ![50000, 3, 1]⟩
abbrev S50000x3x3 : Shape := ⟨3, ![50000, 3, 3]⟩
abbrev S50000x1x3 : Shape := ⟨3, ![50000, 1, 3]⟩
abbrev S50000x4x3 : Shape := ⟨3, ![50000, 4, 3]⟩
abbrev S50000x64 : Shape := ⟨2, ![50000, 64]⟩
abbrev S1000x4x3 : Shape := ⟨3, ![1000, 4, 3]⟩
abbrev S1000x64 : Shape := ⟨2, ![1000, 64]⟩
abbrev S1000x1x3 : Shape := ⟨3, ![1000, 1, 3]⟩
abbrev S1000x3 : Shape := ⟨2, ![1000, 3]⟩
abbrev S1000x64x4 : Shape := ⟨3, ![1000, 64, 4]⟩
abbrev S64x4 : Shape := ⟨2, ![64, 4]⟩
abbrev S1000x1 : Shape := ⟨2, ![1000, 1]⟩
abbrev S1000 : Shape := ⟨1, ![1000]⟩
abbrev S1000x1x1 : Shape := ⟨3, ![1000, 1, 1]⟩

abbrev nBuf : Space → Nat
  | .hbm => 24
  | .vmem => 5
  | .smem => 0
  | _ => 0

abbrev bufTy : (tb : Table) → Fin (tcTables nBuf tb) → BufTy
  | .hbm, ⟨0, _⟩ => ⟨S50000x3, .f32⟩
  | .hbm, ⟨1, _⟩ => ⟨S50000x3, .i32⟩
  | .hbm, ⟨2, _⟩ => ⟨S1x64x4, .f32⟩
  | .hbm, ⟨3, _⟩ => ⟨S1x64x4, .f32⟩
  | .hbm, ⟨4, _⟩ => ⟨S1x64x4, .f32⟩
  | .hbm, ⟨5, _⟩ => ⟨S1x64x4, .f32⟩
  | .hbm, ⟨6, _⟩ => ⟨S1x64x4, .f32⟩
  | .hbm, ⟨7, _⟩ => ⟨S1x64x4, .f32⟩
  | .hbm, ⟨8, _⟩ => ⟨S1x64x4, .f32⟩
  | .hbm, ⟨9, _⟩ => ⟨S1x64x4, .f32⟩
  | .hbm, ⟨10, _⟩ => ⟨S1x64x4, .f32⟩
  | .hbm, ⟨11, _⟩ => ⟨S3x64x4, .f32⟩
  | .hbm, ⟨12, _⟩ => ⟨S_, .i32⟩
  | .hbm, ⟨13, _⟩ => ⟨S50000x3, .i32⟩
  | .hbm, ⟨14, _⟩ => ⟨S50000x3, .i1⟩
  | .hbm, ⟨15, _⟩ => ⟨S_, .i32⟩
  | .hbm, ⟨16, _⟩ => ⟨S50000x3, .i32⟩
  | .hbm, ⟨17, _⟩ => ⟨S50000x3, .i32⟩
  | .hbm, ⟨18, _⟩ => ⟨S50000x3, .i32⟩
  | .hbm, ⟨19, _⟩ => ⟨S50000x3x1, .i32⟩
  | .hbm, ⟨20, _⟩ => ⟨S50000x3x3, .f32⟩
  | .hbm, ⟨21, _⟩ => ⟨S50000x1x3, .f32⟩
  | .hbm, ⟨22, _⟩ => ⟨S50000x4x3, .f32⟩
  | .hbm, ⟨23, _⟩ => ⟨S50000x64, .f32⟩
  | .local _ .vmem, ⟨0, _⟩ => ⟨S1000x4x3, .f32⟩
  | .local _ .vmem, ⟨1, _⟩ => ⟨S1000x4x3, .f32⟩
  | .local _ .vmem, ⟨2, _⟩ => ⟨S3x64x4, .f32⟩
  | .local _ .vmem, ⟨3, _⟩ => ⟨S1000x64, .f32⟩
  | .local _ .vmem, ⟨4, _⟩ => ⟨S1000x64, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x4x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S1x64x4_S1x64x4_S1x64x4_S3x64x4_d0 : Shape.Concatenates [S1x64x4, S1x64x4, S1x64x4] S3x64x4 0
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  bcast_S50000x3_S50000x1x3_0_2 : S50000x3.BroadcastsInDim S50000x1x3 (![0, 2] : Fin 2 → Fin S50000x1x3.rank)
  concatenates_S50000x1x3_S50000x3x3_S50000x4x3_d1 : Shape.Concatenates [S50000x1x3, S50000x3x3] S50000x4x3 1
  inb_S1000x4x3_S1000x1x3_0_0_0 : ∀ a, (![0, 0, 0] : Fin 3 → Nat) a + S1000x1x3.size a ≤ S1000x4x3.size a
  h_S1000x1x3 : 0 < S1000x1x3.numel
  shapeCasts_S1000x1x3_S1000x3 : S1000x1x3.ShapeCasts S1000x3
  inb_S3x64x4_S1x64x4_0_0_0 : ∀ a, (![0, 0, 0] : Fin 3 → Nat) a + S1x64x4.size a ≤ S3x64x4.size a
  h_S1x64x4 : 0 < S1x64x4.numel
  shapeCasts_S1x64x4_S64x4 : S1x64x4.ShapeCasts S64x4
  slices_S1000x3_o0_0_S1000x1 : S1000x3.Slices ![0, 0] S1000x1
  shapeCasts_S1000x1_S1000 : S1000x1.ShapeCasts S1000
  shapeCasts_S1000_S1000x1x1 : S1000.ShapeCasts S1000x1x1
  shapeCasts_S64x4_S1x64x4 : S64x4.ShapeCasts S1x64x4
  broadcasts_S1000x1x1_S1000x64x4 : S1000x1x1.Broadcasts S1000x64x4
  broadcasts_S1x64x4_S1000x64x4 : S1x64x4.Broadcasts S1000x64x4
  inb_S3x64x4_S1x64x4_1_0_0 : ∀ a, (![1, 0, 0] : Fin 3 → Nat) a + S1x64x4.size a ≤ S3x64x4.size a
  slices_S1000x3_o0_1_S1000x1 : S1000x3.Slices ![0, 1] S1000x1
  inb_S3x64x4_S1x64x4_2_0_0 : ∀ a, (![2, 0, 0] : Fin 3 → Nat) a + S1x64x4.size a ≤ S3x64x4.size a
  slices_S1000x3_o0_2_S1000x1 : S1000x3.Slices ![0, 2] S1000x1
  reduces_S1000x64x4_S1000x64 : S1000x64x4.Reduces [2] S1000x64
  inb_S1000x4x3_S1000x1x3_0_1_0 : ∀ a, (![0, 1, 0] : Fin 3 → Nat) a + S1000x1x3.size a ≤ S1000x4x3.size a
  inb_S1000x4x3_S1000x1x3_0_2_0 : ∀ a, (![0, 2, 0] : Fin 3 → Nat) a + S1000x1x3.size a ≤ S1000x4x3.size a
  inb_S1000x4x3_S1000x1x3_0_3_0 : ∀ a, (![0, 3, 0] : Fin 3 → Nat) a + S1000x1x3.size a ≤ S1000x4x3.size a
  inb_S1000x64_S1000x64_0_0 : ∀ a, (![0, 0] : Fin 2 → Nat) a + S1000x64.size a ≤ S1000x64.size a
  h_S1000x64 : 0 < S1000x64.numel
  gather_S50000x3_S50000x3x1_S50000x3x3_2_0_n_n_0_2_13_wf : GatherDims.WF S50000x3 S50000x3x1 S50000x3x3 [2] [0] [] [0] [] 2 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x4x3.size a ≤ S50000x4x3.size a
  hwx0_0 : ∀ i : grid0.Coords, EltTy.bits .f32 = 32 ∨ (Rect.block (s := S50000x4x3) S1000x4x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64x4.size a ≤ S3x64x4.size a
  hwx0_1 : ∀ i : grid0.Coords, EltTy.bits .f32 = 32 ∨ (Rect.block (s := S3x64x4) S3x64x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S50000x64.size a
  hwx0_2 : ∀ i : grid0.Coords, EltTy.bits .f32 = 32 ∨ (Rect.block (s := S50000x64) S1000x64.size (cc0_transform_2 i) (hinb0_2 i)).WholeWords (EltTy.packing .f32)

variable [Facts₀]

def gather_S50000x3_S50000x3x1_S50000x3x3_2_0_n_n_0_2_13 : GatherDims S50000x3 S50000x3x1 S50000x3x3 where
  offsetDims := [2]
  collapsedSliceDims := [0]
  operandBatchingDims := []
  startIndicesBatchingDims := []
  startIndexMap := [0]
  indexVectorDim := 2
  sliceSizes := ![1, 3]
  wf := gather_S50000x3_S50000x3x1_S50000x3x3_2_0_n_n_0_2_13_wf

abbrev win0_0 : Pipeline.Window sig grid0 :=
  Pipeline.Window.ofSpec (Memref.whole main_v16) S1000x4x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3x64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x3 : Shape := ⟨2, ![50000, 3]⟩
abbrev S1x64x4 : Shape := ⟨3, ![1, 64, 4]⟩
abbrev S3x64x4 : Shape := ⟨3, ![3, 64, 4]⟩
abbrev S_ : Shape := ⟨0, ![]⟩
abbrev S50000x3x1 : Shape := ⟨3, ![50000, 3, 1]⟩
abbrev S50000x3x3 : Shape := ⟨3, ![50000, 3, 3]⟩
abbrev S50000x1x3 : Shape := ⟨3, ![50000, 1, 3]⟩
abbrev S50000x4x3 : Shape := ⟨3, ![50000, 4, 3]⟩
abbrev S50000x4x3x1x1 : Shape := ⟨5, ![50000, 4, 3, 1, 1]⟩
abbrev S1x1x3x64x4 : Shape := ⟨5, ![1, 1, 3, 64, 4]⟩
abbrev S50000x4x3x64x4 : Shape := ⟨5, ![50000, 4, 3, 64, 4]⟩
abbrev S50000x4x64x4 : Shape := ⟨4, ![50000, 4, 64, 4]⟩
abbrev S50000x64 : Shape := ⟨2, ![50000, 64]⟩

abbrev nBuf : Space → Nat
  | .hbm => 40
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x3, .i32⟩
  | .hbm, ⟨2, _⟩ => ⟨S1x64x4, .f32⟩
  | .hbm, ⟨3, _⟩ => ⟨S1x64x4, .f32⟩
  | .hbm, ⟨4, _⟩ => ⟨S1x64x4, .f32⟩
  | .hbm, ⟨5, _⟩ => ⟨S1x64x4, .f32⟩
  | .hbm, ⟨6, _⟩ => ⟨S1x64x4, .f32⟩
  | .hbm, ⟨7, _⟩ => ⟨S1x64x4, .f32⟩
  | .hbm, ⟨8, _⟩ => ⟨S1x64x4, .f32⟩
  | .hbm, ⟨9, _⟩ => ⟨S1x64x4, .f32⟩
  | .hbm, ⟨10, _⟩ => ⟨S1x64x4, .f32⟩
  | .hbm, ⟨11, _⟩ => ⟨S3x64x4, .f32⟩
  | .hbm, ⟨12, _⟩ => ⟨S_, .i32⟩
  | .hbm, ⟨13, _⟩ => ⟨S50000x3, .i32⟩
  | .hbm, ⟨14, _⟩ => ⟨S50000x3, .i1⟩
  | .hbm, ⟨15, _⟩ => ⟨S_, .i32⟩
  | .hbm, ⟨16, _⟩ => ⟨S50000x3, .i32⟩
  | .hbm, ⟨17, _⟩ => ⟨S50000x3, .i32⟩
  | .hbm, ⟨18, _⟩ => ⟨S50000x3, .i32⟩
  | .hbm, ⟨19, _⟩ => ⟨S50000x3x1, .i32⟩
  | .hbm, ⟨20, _⟩ => ⟨S50000x3x3, .f32⟩
  | .hbm, ⟨21, _⟩ => ⟨S50000x1x3, .f32⟩
  | .hbm, ⟨22, _⟩ => ⟨S50000x4x3, .f32⟩
  | .hbm, ⟨23, _⟩ => ⟨S50000x4x3x1x1, .f32⟩
  | .hbm, ⟨24, _⟩ => ⟨S1x1x3x64x4, .f32⟩
  | .hbm, ⟨25, _⟩ => ⟨S50000x4x3x64x4, .f32⟩
  | .hbm, ⟨26, _⟩ => ⟨S50000x4x3x64x4, .f32⟩
  | .hbm, ⟨27, _⟩ => ⟨S50000x4x3x64x4, .f32⟩
  | .hbm, ⟨28, _⟩ => ⟨S50000x4x3x64x4, .f32⟩
  | .hbm, ⟨29, _⟩ => ⟨S_, .f32⟩
  | .hbm, ⟨30, _⟩ => ⟨S50000x4x64x4, .f32⟩
  | .hbm, ⟨31, _⟩ => ⟨S_, .f32⟩
  | .hbm, ⟨32, _⟩ => ⟨S50000x4x64x4, .f32⟩
  | .hbm, ⟨33, _⟩ => ⟨S50000x4x64x4, .f32⟩
  | .hbm, ⟨34, _⟩ => ⟨S50000x4x64x4, .f32⟩
  | .hbm, ⟨35, _⟩ => ⟨S_, .f32⟩
  | .hbm, ⟨36, _⟩ => ⟨S50000x64, .f32⟩
  | .hbm, ⟨37, _⟩ => ⟨S_, .f32⟩
  | .hbm, ⟨38, _⟩ => ⟨S50000x64, .f32⟩
  | .hbm, ⟨39, _⟩ => ⟨S50000x64, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  concatenates_S1x64x4_S1x64x4_S1x64x4_S3x64x4_d0 : Shape.Concatenates [S1x64x4, S1x64x4, S1x64x4] S3x64x4 0
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  bcast_S50000x3_S50000x1x3_0_2 : S50000x3.BroadcastsInDim S50000x1x3 (![0, 2] : Fin 2 → Fin S50000x1x3.rank)
  concatenates_S50000x1x3_S50000x3x3_S50000x4x3_d1 : Shape.Concatenates [S50000x1x3, S50000x3x3] S50000x4x3 1
  bcast_S50000x4x3_S50000x4x3x1x1_0_1_2 : S50000x4x3.BroadcastsInDim S50000x4x3x1x1 (![0, 1, 2] : Fin 3 → Fin S50000x4x3x1x1.rank)
  bcast_S3x64x4_S1x1x3x64x4_2_3_4 : S3x64x4.BroadcastsInDim S1x1x3x64x4 (![2, 3, 4] : Fin 3 → Fin S1x1x3x64x4.rank)
  bcast_S50000x4x3x1x1_S50000x4x3x64x4_0_1_2_3_4 : S50000x4x3x1x1.BroadcastsInDim S50000x4x3x64x4 (![0, 1, 2, 3, 4] : Fin 5 → Fin S50000x4x3x64x4.rank)
  bcast_S1x1x3x64x4_S50000x4x3x64x4_0_1_2_3_4 : S1x1x3x64x4.BroadcastsInDim S50000x4x3x64x4 (![0, 1, 2, 3, 4] : Fin 5 → Fin S50000x4x3x64x4.rank)
  reducesTo_S50000x4x3x64x4_S50000x4x64x4_d2 : S50000x4x3x64x4.ReducesTo [2] S50000x4x64x4
  h_S_ : 0 < S_.numel
  bcast_S_S50000x4x64x4 : S_.BroadcastsInDim S50000x4x64x4 (![] : Fin 0 → Fin S50000x4x64x4.rank)
  reducesTo_S50000x4x64x4_S50000x64_d1_3 : S50000x4x64x4.ReducesTo [1, 3] S50000x64
  bcast_S_S50000x64 : S_.BroadcastsInDim S50000x64 (![] : Fin 0 → Fin S50000x64.rank)
  gather_S50000x3_S50000x3x1_S50000x3x3_2_0_n_n_0_2_13_wf : GatherDims.WF S50000x3 S50000x3x1 S50000x3x3 [2] [0] [] [0] [] 2 ![1, 3]

variable [Facts₀]

def gather_S50000x3_S50000x3x1_S50000x3x3_2_0_n_n_0_2_13 : GatherDims S50000x3 S50000x3x1 S50000x3x3 where
  offsetDims := [2]
  collapsedSliceDims := [0]
  operandBatchingDims := []
  startIndicesBatchingDims := []
  startIndexMap := [0]
  indexVectorDim := 2
  sliceSizes := ![1, 3]
  wf := gather_S50000x3_S50000x3x1_S50000x3x3_2_0_n_n_0_2_13_wf

class Facts : Prop extends Facts₀ where

variable [Facts]
-- ==== Proof.KernelFrame.lean ====
/-
  The frame of `Kernel`'s @main: nineteen host operations build the two arrays the region's input windows stage
  (the points' table, [50000, 4, 3], and the kernel points' table, [3, 64, 4]); the region runs one body at each
  of the 50 grid points; nothing follows it. Every host operation writes a buffer of its own, so the four argument
  arrays reach the region, and end, as launched. At a grid point the body loads four [1000, 1, 3] slices of its
  block of the points' table and the three [1, 64, 4] slices of the kernel points' table, computes, and stores ONE
  [1000, 64] value covering its output block: what the output buffer holds afterwards is that value, a pure function
  (`blockOut`) of the two input blocks. The proof data says exactly this, the body's triple is run by the symbolic
  executor, and the launch theorem of the pipeline library gives the run: every array of the pipeline at what the
  proof data computes, every other buffer as the region found it.
-/
import proofs.«162097_j14267881357849_2_alg».proof.Proof.Gen.Kernel.Launch
import proofs.«162097_j14267881357849_2_alg».proof.Proof.Gen.Kernel.Skeleton
import proofs.«162097_j14267881357849_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the nineteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The points' window holds its block at every point: an input the body leaves in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The kernel points' window holds its (one) block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run ending with every buffer outside the pipeline's arrays as the region found it ends with the four arguments as
    launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- Point `p`'s coordinates of every node of the block: a [1000, 1, 3] slice of the points' block. -/
abbrev rp0 : Rect S1000x4x3 := Rect.unit (s := S1000x4x3) ![0, 0, 0] S1000x1x3.size inb_S1000x4x3_S1000x1x3_0_0_0
abbrev rp1 : Rect S1000x4x3 := Rect.unit (s := S1000x4x3) ![0, 1, 0] S1000x1x3.size inb_S1000x4x3_S1000x1x3_0_1_0
abbrev rp2 : Rect S1000x4x3 := Rect.unit (s := S1000x4x3) ![0, 2, 0] S1000x1x3.size inb_S1000x4x3_S1000x1x3_0_2_0
abbrev rp3 : Rect S1000x4x3 := Rect.unit (s := S1000x4x3) ![0, 3, 0] S1000x1x3.size inb_S1000x4x3_S1000x1x3_0_3_0
/-- Coordinate `c` of every kernel point: a [1, 64, 4] slice of the kernel points' table. -/
abbrev rk0 : Rect S3x64x4 := Rect.unit (s := S3x64x4) ![0, 0, 0] S1x64x4.size inb_S3x64x4_S1x64x4_0_0_0
abbrev rk1 : Rect S3x64x4 := Rect.unit (s := S3x64x4) ![1, 0, 0] S1x64x4.size inb_S3x64x4_S1x64x4_1_0_0
abbrev rk2 : Rect S3x64x4 := Rect.unit (s := S3x64x4) ![2, 0, 0] S1x64x4.size inb_S3x64x4_S1x64x4_2_0_0
/-- The whole output block. -/
abbrev ro : Rect S1000x64 := Rect.unit (s := S1000x64) ![0, 0] S1000x64.size inb_S1000x64_S1000x64_0_0

/-! ## What the body leaves in the output window's buffer -/

/-- The value the body stores, from the two input blocks: the four points' responses accumulated in order, each from
    its slice of the points' block and the three slices of the kernel points' table, then the final scaling. -/
def blockVal (x0 : Vec F S1000x4x3 .f32) (x1 : Vec F S3x64x4 .f32) : Vec F S1000x64 .f32 :=
  k0_pay1
    (k0_pay5
      (k0_pay3 (k0_pay2 (View.ld x0 rp0) (View.ld x1 rk0) (View.ld x1 rk1) (View.ld x1 rk2))
        (View.ld x0 rp1) (View.ld x1 rk0) (View.ld x1 rk1) (View.ld x1 rk2))
      (k0_pay4 (View.ld x0 rp2)) (View.ld x1 rk0) (View.ld x1 rk1) (View.ld x1 rk2))
    (k0_pay6 (View.ld x0 rp3)) (k0_pay7 (F := F)) (View.ld x1 rk0) (View.ld x1 rk1) (View.ld x1 rk2)

/-- The output buffer after the body: its one store, as a piece. -/
def blockOut (x0 : Vec F S1000x4x3 .f32) (x1 : Vec F S3x64x4 .f32) : Vec F S1000x64 .f32 :=
  View.canon [⟨ro, blockVal x0 x1⟩]

/-- The store covers the buffer. -/
theorem cover_out (p0 : Vec F S1000x64 .f32) (y : S1000x64.Idx) :
    ∃ pc ∈ ([⟨ro, p0⟩] : List (View.Piece (Elt F) S1000x64 .f32)), y ∈ pc.1.set :=
  View.cover_of_tiled [⟨ro, p0⟩] S1000x64.size (by rfl) y

/-! ## The body's triple -/

set_option maxHeartbeats 4000000 in
/-- The body on whole staging memrefs, the inputs' at contents `x0`, `x1` and the output's at anything, runs to the
    continuation holding the inputs' as they were and the output's at `blockOut x0 x1`. -/
theorem sound_kernel (c : Dev nD) (E : Set ℕ) (i : grid0.Coords) (arg1 : Memref sig .tc .vmem S1000x4x3 .f32) (harg1 : arg1.IsWhole)
    (arg2 : Memref sig .tc .vmem S3x64x4 .f32) (harg2 : arg2.IsWhole) (arg3 : Memref sig .tc .vmem S1000x64 .f32) (harg3 : arg3.IsWhole)
    (x0 : Vec F S1000x4x3 .f32) (x1 : Vec F S3x64x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ K ⟨⟩))
      ⊢ wp frame (wpE (defs₀ (F := F)) Variants.none c none) E (cc0__corr_kernel i arg1 harg1 arg2 harg2 arg3 harg3) K := by
  simp only [cc0__corr_kernel_eq_skeleton]; unfold cc0__corr_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- On core `c`: the arrays as the region finds them; after the body at point `t` each input's buffer at its block and
    the output's at `blockOut` of the two input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockOut (iblk m c 0 t) (iblk m c 1 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KernelIdealFrame.lean ====
/-
  The frame of `KernelIdeal`'s @main: nineteen host operations build the two arrays the region's input windows stage
  (the points' table, [50000, 4, 3], and the kernel points' table, [3, 64, 4]); the region runs one body at each
  of the 50 grid points; nothing follows it. Every host operation writes a buffer of its own, so the four argument
  arrays reach the region, and end, as launched. At a grid point the body loads four [1000, 1, 3] slices of its
  block of the points' table and the three [1, 64, 4] slices of the kernel points' table, computes, and stores ONE
  [1000, 64] value covering its output block: what the output buffer holds afterwards is that value, a pure function
  (`blockOut`) of the two input blocks. The proof data says exactly this, the body's triple is run by the symbolic
  executor, and the launch theorem of the pipeline library gives the run: every array of the pipeline at what the
  proof data computes, every other buffer as the region found it.
-/
import proofs.«162097_j14267881357849_2_alg».proof.Proof.Gen.KernelIdeal.Launch
import proofs.«162097_j14267881357849_2_alg».proof.Proof.Gen.KernelIdeal.Skeleton
import proofs.«162097_j14267881357849_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch memory after the nineteen host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The points' window holds its block at every point: an input the body leaves in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The kernel points' window holds its (one) block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run ending with every buffer outside the pipeline's arrays as the region found it ends with the four arguments as
    launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- Point `p`'s coordinates of every node of the block: a [1000, 1, 3] slice of the points' block. -/
abbrev rp0 : Rect S1000x4x3 := Rect.unit (s := S1000x4x3) ![0, 0, 0] S1000x1x3.size inb_S1000x4x3_S1000x1x3_0_0_0
abbrev rp1 : Rect S1000x4x3 := Rect.unit (s := S1000x4x3) ![0, 1, 0] S1000x1x3.size inb_S1000x4x3_S1000x1x3_0_1_0
abbrev rp2 : Rect S1000x4x3 := Rect.unit (s := S1000x4x3) ![0, 2, 0] S1000x1x3.size inb_S1000x4x3_S1000x1x3_0_2_0
abbrev rp3 : Rect S1000x4x3 := Rect.unit (s := S1000x4x3) ![0, 3, 0] S1000x1x3.size inb_S1000x4x3_S1000x1x3_0_3_0
/-- Coordinate `c` of every kernel point: a [1, 64, 4] slice of the kernel points' table. -/
abbrev rk0 : Rect S3x64x4 := Rect.unit (s := S3x64x4) ![0, 0, 0] S1x64x4.size inb_S3x64x4_S1x64x4_0_0_0
abbrev rk1 : Rect S3x64x4 := Rect.unit (s := S3x64x4) ![1, 0, 0] S1x64x4.size inb_S3x64x4_S1x64x4_1_0_0
abbrev rk2 : Rect S3x64x4 := Rect.unit (s := S3x64x4) ![2, 0, 0] S1x64x4.size inb_S3x64x4_S1x64x4_2_0_0
/-- The whole output block. -/
abbrev ro : Rect S1000x64 := Rect.unit (s := S1000x64) ![0, 0] S1000x64.size inb_S1000x64_S1000x64_0_0

/-! ## What the body leaves in the output window's buffer -/

/-- The value the body stores, from the two input blocks: the four points' responses accumulated in order, each from
    its slice of the points' block and the three slices of the kernel points' table, then the final scaling. -/
def blockVal (x0 : Vec F S1000x4x3 .f32) (x1 : Vec F S3x64x4 .f32) : Vec F S1000x64 .f32 :=
  k0_pay1
    (k0_pay5
      (k0_pay3 (k0_pay2 (View.ld x0 rp0) (View.ld x1 rk0) (View.ld x1 rk1) (View.ld x1 rk2))
        (View.ld x0 rp1) (View.ld x1 rk0) (View.ld x1 rk1) (View.ld x1 rk2))
      (k0_pay4 (View.ld x0 rp2)) (View.ld x1 rk0) (View.ld x1 rk1) (View.ld x1 rk2))
    (k0_pay6 (View.ld x0 rp3)) (k0_pay7 (F := F)) (View.ld x1 rk0) (View.ld x1 rk1) (View.ld x1 rk2)

/-- The output buffer after the body: its one store, as a piece. -/
def blockOut (x0 : Vec F S1000x4x3 .f32) (x1 : Vec F S3x64x4 .f32) : Vec F S1000x64 .f32 :=
  View.canon [⟨ro, blockVal x0 x1⟩]

/-- The store covers the buffer. -/
theorem cover_out (p0 : Vec F S1000x64 .f32) (y : S1000x64.Idx) :
    ∃ pc ∈ ([⟨ro, p0⟩] : List (View.Piece (Elt F) S1000x64 .f32)), y ∈ pc.1.set :=
  View.cover_of_tiled [⟨ro, p0⟩] S1000x64.size (by rfl) y

/-! ## The body's triple -/

set_option maxHeartbeats 4000000 in
/-- The body on whole staging memrefs, the inputs' at contents `x0`, `x1` and the output's at anything, runs to the
    continuation holding the inputs' as they were and the output's at `blockOut x0 x1`. -/
theorem sound_kernel (c : Dev nD) (E : Set ℕ) (i : grid0.Coords) (arg1 : Memref sig .tc .vmem S1000x4x3 .f32) (harg1 : arg1.IsWhole)
    (arg2 : Memref sig .tc .vmem S3x64x4 .f32) (harg2 : arg2.IsWhole) (arg3 : Memref sig .tc .vmem S1000x64 .f32) (harg3 : arg3.IsWhole)
    (x0 : Vec F S1000x4x3 .f32) (x1 : Vec F S3x64x4 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (blockOut x0 x1)) -∗ K ⟨⟩))
      ⊢ wp frame (wpE (defs₀ (F := F)) Variants.none c none) E (cc0__corr_kernel i arg1 harg1 arg2 harg2 arg3 harg3) K := by
  simp only [cc0__corr_kernel_eq_skeleton]; unfold cc0__corr_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- On core `c`: the arrays as the region finds them; after the body at point `t` each input's buffer at its block and
    the output's at `blockOut` of the two input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => blockOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = blockOut (iblk m c 0 t) (iblk m c 1 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline at
    what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.Spec.lean ====
/-
  The function both programs compute, on the extended reals.

  A node has four points (itself and its three neighbours), each with three coordinates; there are 64 kernels of four
  kernel points each, a kernel point having three coordinates. The response of kernel `k` at a node is

      (1/16) · Σ_{p < 4} Σ_{l < 4} exp( ‖point p − kernel point (k, l)‖² · (1/D) ),

  where ‖·‖² is the sum over the three coordinates of the squared differences and `D` is the single-precision number
  nearest −0.08, namely −5368709 / 2²⁶, so that 1/D = −67108864 / 5368709.

  It is stated for one node's row of points, so that it reads the same off a block of a thousand nodes and off the whole
  array of fifty thousand.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The reciprocal of `D = −5368709 / 2²⁶`. -/
def invD : EReal := ((-67108864 / 5368709 : ℝ) : EReal)

/-- The squared distance from a point (its three coordinates `pt`) to kernel point `(k, l)`. -/
def dist2 (pt : Fin 3 → EReal) (Kt : (⟨3, ![3, 64, 4]⟩ : Shape).Idx → EReal) (k : Fin 64) (l : Fin 4) : EReal :=
  ∑ c : Fin 3, (pt c - Kt (ix3 c k l)) * (pt c - Kt (ix3 c k l))

/-- One node's response of kernel `k`, from the node's four points. -/
def rowCorr (row : Fin 4 → Fin 3 → EReal) (Kt : (⟨3, ![3, 64, 4]⟩ : Shape).Idx → EReal) (k : Fin 64) : EReal :=
  (∑ p : Fin 4, ∑ l : Fin 4, Ideal.exp (dist2 (row p) Kt k l * invD)) * ((1 / 16 : ℝ) : EReal)

/-- The whole result, over `N` nodes: entry `(n, k)` is node `n`'s response of kernel `k`. -/
def corr {N : Nat} (P : (⟨3, ![N, 4, 3]⟩ : Shape).Idx → EReal) (Kt : (⟨3, ![3, 64, 4]⟩ : Shape).Idx → EReal) :
    (⟨2, ![N, 64]⟩ : Shape).Idx → EReal :=
  fun j => rowCorr (fun p c => P (ix3 (j 0) p c)) Kt (j 1)

theorem corr_apply {N : Nat} (P : (⟨3, ![N, 4, 3]⟩ : Shape).Idx → EReal) (Kt : (⟨3, ![3, 64, 4]⟩ : Shape).Idx → EReal)
    (n : Fin N) (k : Fin 64) : corr P Kt (ix2 n k) = rowCorr (fun p c => P (ix3 n p c)) Kt k := rfl

end Cert.Spec

end
-- ==== Proof.KernelValue.lean ====
/-
  What the kernel's program leaves in its result array, at the extended reals.

  The region's output window tiles the [50000, 64] result array in fifty blocks of a thousand rows; at grid point `t`
  the points' window holds rows `1000 t … 1000 t + 999` of the [50000, 4, 3] table of node points, and the kernel
  points' window holds the whole [3, 64, 4] table. Given that the value the body stores, read at row `r` and kernel
  `k` of the block, is the response `rowCorr` of row `r` of the points' block (`hpay`), what point `t` writes back
  is block `t` of ONE whole-array function: the response of every node, from the two tables as the region finds them.
  The fifty blocks cover the array, so the array ends holding that function.
-/
import proofs.«162097_j14267881357849_2_alg».proof.Proof.KernelIdealFrame
import proofs.«162097_j14267881357849_2_alg».proof.Proof.Spec
import Idealize.ShloMosaic.Lib.Pipeline.Value
import Idealize.ShloMosaic.Lib.StableHlo.Run

noncomputable section

namespace Cert.KernelIdeal.KV

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's stored value read at an index is the response of that row: the hypothesis the block-to-array step takes. -/
def PayloadIs : Prop :=
  ∀ (x0 : Vec Ideal S1000x4x3 .f32) (x1 : Vec Ideal S3x64x4 .f32) (r : Fin 1000) (k : Fin 64),
    blockVal (F := Ideal) x0 x1 (ix2 r k) = Cert.Spec.rowCorr (fun p c => x0 (ix3 r p c)) x1 k

/-- The result array: every node's response, from the two tables as the region finds them. -/
def result (c : Dev nD) : S50000x64.Idx → EReal :=
  Cert.Spec.corr (N := 50000) (V m c main_v16) (V m c main_v7)

theorem hz : (![0, 0] : Fin 2 → Nat) = fun _ => 0 := funext fun a => by fin_cases a <;> rfl

/-- The printed index maps over the grid: the points' window and the output window move together along the rows, and
    every other block index is zero. -/
theorem idx_facts : ∀ t : Fin cfg0.N, win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- What point `t` writes back is block `t` of `result`. -/
theorem flushed_eq (hpay : PayloadIs) (c : Dev nD) (t : Fin cfg0.N) :
    (dats m 0 c).flushed 2 t = ((cfg0.win 2).blk t).view.read (Elt Ideal) (result m c) := by
  show (cfg0.win 2).cut (grid0.coords t) ((dats m 0 c).after 2 t) = _
  rw [after_2]
  unfold blockOut
  rw [View.canon_unit_zero hz]
  obtain ⟨e00, e01, e02, e10, e11, e12, e20, e21⟩ := idx_facts t
  funext j
  obtain ⟨r, k, rfl⟩ : ∃ (r : Fin 1000) (k : Fin 64), j = ix2 r k := ⟨j 0, j 1, eq_ix2 j⟩
  show blockVal (F := Ideal) (iblk m c 0 t) (iblk m c 1 t) (ix2 r k) = result m c (((cfg0.win 2).blk t).view.emb (ix2 r k))
  rw [hpay]
  have ht : t.val < 50 := lt_of_lt_of_eq t.isLt N_0
  have hr : r.val < 1000 := r.isLt
  show Cert.Spec.rowCorr (fun p cc => iblk m c 0 t (ix3 r p cc)) (iblk m c 1 t) k
    = Cert.Spec.rowCorr (fun p cc => V m c main_v16 (ix3 ((((cfg0.win 2).blk t).view.emb (ix2 r k)) 0) p cc)) (V m c main_v7)
        ((((cfg0.win 2).blk t).view.emb (ix2 r k)) 1)
  have hrow : (fun (p : Fin 4) (cc : Fin 3) => iblk m c 0 t (ix3 r p cc))
      = fun p cc => V m c main_v16 (ix3 ((((cfg0.win 2).blk t).view.emb (ix2 r k)) 0) p cc) := by
    funext p cc
    show V m c main_v16 (((cfg0.win 0).blk t).view.emb (ix3 r p cc)) = _
    refine congrArg (V m c main_v16) (funext fun a => Fin.ext ?_)
    match a with
    | ⟨0, _⟩ => show win0_0.index t (0 : Fin 3) * 1000 + 1 * r.val = win0_2.index t (0 : Fin 2) * 1000 + 1 * r.val; omega
    | ⟨1, _⟩ => show win0_0.index t (1 : Fin 3) * 4 + 1 * p.val = p.val; omega
    | ⟨2, _⟩ => show win0_0.index t (2 : Fin 3) * 3 + 1 * cc.val = cc.val; omega
  have hkt : iblk m c 1 t = V m c main_v7 := by
    funext y
    show V m c main_v7 (((cfg0.win 1).blk t).view.emb y) = _
    refine congrArg (V m c main_v7) (funext fun a => Fin.ext ?_)
    match a with
    | ⟨0, _⟩ => show win0_1.index t (0 : Fin 3) * 3 + 1 * (y 0).val = (y 0).val; omega
    | ⟨1, _⟩ => show win0_1.index t (1 : Fin 3) * 64 + 1 * (y 1).val = (y 1).val; omega
    | ⟨2, _⟩ => show win0_1.index t (2 : Fin 3) * 4 + 1 * (y 2).val = (y 2).val; omega
  have hk : k = (((cfg0.win 2).blk t).view.emb (ix2 r k)) 1 := by
    apply Fin.ext
    show k.val = win0_2.index t (1 : Fin 2) * 64 + 1 * k.val
    omega
  rw [hrow, hkt, ← hk]

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S1000x64.size a ≤ (i a).val ∧ (i a).val < win0_2.index t a * S1000x64.size a + S1000x64.size a := by
  show i ∈ ((View.whole main_v17).slice (win0_2.rect t)).set ↔ _
  rw [View.set_slice_whole, Rect.mem_set_unit]
  exact Iff.rfl

/-- Row `n` lies in block `n / 1000`: the fifty blocks cover the array. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 50 := N_0
  let t : Fin cfg0.N := ⟨(i 0).val / 1000, by rw [hN]; omega⟩
  obtain ⟨-, -, -, -, -, -, e20, e21⟩ := idx_facts t
  have tv : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 64 ≤ (i 1).val ∧ (i 1).val < win0_2.index t (1 : Fin 2) * 64 + 64; omega

/-- The result array after the run. -/
theorem final (hpay : PayloadIs) (c : Dev nD) : (dats m 0 c).arrAt 2 cfg0.N = result m c :=
  (dats m 0 c).arrAt_eq_of_cover 2 (result m c) (fun t _ => flushed_eq m hpay c t) cover

/-- The kernel's program runs, its result array ends at `result`, its arguments as launched. -/
theorem run (hpay : PayloadIs) : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 2).trans (final m hpay c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.KV

end
-- ==== Proof.HostTables.lean ====
/-
  The two tables the region stages, as the host operations before it leave them.

  The table of node points, [50000, 4, 3]: row `n` is node `n`'s own coordinates followed by those of its three
  neighbours, gathered from the array of normals at the neighbour indices (a negative index first wrapped by adding
  50000). The table of kernel points, [3, 64, 4]: the three coordinate planes sin θ · sin φ, sin θ · cos φ and cos θ.
  Both are read off the fold of the host operations over the launch memory, and they are the very terms the reference
  program's own first nineteen operations compute from the same arguments.
-/
import proofs.«162097_j14267881357849_2_alg».proof.Proof.KernelIdealFrame
import proofs.«162097_j14267881357849_2_alg».proof.Proof.Gen.ReferenceIdeal.Read
import Idealize.ShloMosaic.Lib.StableHlo.Run

noncomputable section

namespace Cert.KernelIdeal.Tables

open Cert.KernelIdeal Cert.KernelIdeal.Gen Cert.KernelIdeal.Fr
open Idealize.ShloMosaic Idealize.ShloMosaic.TcCoe Idealize.SL.Sem Idealize.ShloMosaic.StableHlo

variable (m : (ℓ : Loc nD τ sig) → Buf (Elt Ideal) ℓ)

/-- The table of node points from the arrays of normals `a0` and of neighbour indices `a1`. -/
def points (a0 : FVec Ideal S50000x3 .f32) (a1 : IVec S50000x3 32) : FVec Ideal S50000x4x3 .f32 :=
  concatenate S50000x4x3 1 [⟨S50000x1x3, (broadcastInDim S50000x1x3 ![0, 2] bcast_S50000x3_S50000x1x3_0_2 a0)⟩, ⟨S50000x3x3, (Host.gather gather_S50000x3_S50000x3x1_S50000x3x3_2_0_n_n_0_2_13 a0 (broadcastInDim S50000x3x1 ![0, 1] bcast_S50000x3_S50000x3x1_0_1 (select (cmpi .slt a1 (broadcastInDim S50000x3 ![] bcast_S_S50000x3 (constantI S_ 32 0#32))) (addi a1 (broadcastInDim S50000x3 ![] bcast_S_S50000x3 (constantI S_ 32 50000#32))) a1)))⟩] concatenates_S50000x1x3_S50000x3x3_S50000x4x3_d1

/-- The table of kernel points from the two angle arrays. -/
def kpoints (a2 a3 : FVec Ideal S1x64x4 .f32) : FVec Ideal S3x64x4 .f32 :=
  concatenate S3x64x4 0 [⟨S1x64x4, (mulf (Host.sin a2) (Host.sin a3))⟩, ⟨S1x64x4, (mulf (Host.sin a2) (Host.cos a3))⟩, ⟨S1x64x4, (Host.cos a2)⟩] concatenates_S1x64x4_S1x64x4_S1x64x4_S3x64x4_d0

/-- The region finds the points' table at `points` of the launched normals and neighbour indices. -/
theorem V_points (c : Dev nD) : V m c main_v16 = points (m ((c : Thread nD τ).loc main_arg0)) (m ((c : Thread nD τ).loc main_arg1)) := by
  dsimp only [V, hostOps0]; after_results; rfl

/-- The region finds the kernel points' table at `kpoints` of the launched angles. -/
theorem V_kpoints (c : Dev nD) : V m c main_v7 = kpoints (m ((c : Thread nD τ).loc main_arg2)) (m ((c : Thread nD τ).loc main_arg3)) := by
  dsimp only [V, hostOps0]; after_results; rfl

/-- The reference's stage for its table of node points is the same term. -/
theorem ref_points (a0 : FVec Ideal S50000x3 .f32) (a1 : IVec S50000x3 32) :
    Cert.ReferenceIdeal.Read.val_main_v16 (F := Ideal) a0 a1 = points a0 a1 := rfl

/-- The reference's stage for its table of kernel points is the same term. -/
theorem ref_kpoints (a2 a3 : FVec Ideal S1x64x4 .f32) :
    Cert.ReferenceIdeal.Read.val_main_v7 (F := Ideal) a2 a3 = kpoints a2 a3 := rfl

end Cert.KernelIdeal.Tables

end
-- ==== Proof.Bridge.lean ====
/-
  The five claims, from the two index-by-index facts.

  Both programs build the same two tables from the same arguments (the table of node points and the table of kernel
  points) and then compute every node's response from them: the kernel block by block, with the scale as the named
  reciprocal `1/D` and the final factor `1/16`; the reference over the whole arrays, dividing by `D` and by 16. Given
  that the value the kernel's body stores is the response row by row, and that the reference's last stage is the response
  of its two tables, the two result arrays are one function of the arguments. The frames of the two kernel programs
  are their launches' runs; the reference's frame is its run with the result dropped.
-/
import proofs.«162097_j14267881357849_2_alg».proof.Defs
import proofs.«162097_j14267881357849_2_alg».proof.Proof.KernelFrame
import proofs.«162097_j14267881357849_2_alg».proof.Proof.KernelValue
import proofs.«162097_j14267881357849_2_alg».proof.Proof.HostTables
import proofs.«162097_j14267881357849_2_alg».proof.Proof.Gen.ReferenceIdeal.Read
import proofs.«162097_j14267881357849_2_alg».proof.Proof.Gen.Pre_finite_inputs

noncomputable section

namespace Cert.Proof.Bridge

open Idealize.ShloMosaic Idealize.ShloMosaic.TcCoe Idealize.SL.Sem

/-- The reference's last stage is the response of its two tables: the hypothesis the bridge takes from the reference's side. -/
def ReferenceIs : Prop :=
  ∀ (x0 : (⟨Cert.ReferenceIdeal.S50000x3, .f32⟩ : BufTy).Contents (Elt Ideal)) (x1 : (⟨Cert.ReferenceIdeal.S50000x3, .i32⟩ : BufTy).Contents (Elt Ideal))
    (x2 x3 : (⟨Cert.ReferenceIdeal.S1x64x4, .f32⟩ : BufTy).Contents (Elt Ideal)),
    Cert.ReferenceIdeal.Read.val_main_v29 (F := Ideal) x0 x1 x2 x3
      = Cert.Spec.corr (N := 50000) (Cert.ReferenceIdeal.Read.val_main_v16 (F := Ideal) x0 x1) (Cert.ReferenceIdeal.Read.val_main_v7 (F := Ideal) x2 x3)

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's four entries are one statement: the table gives `"inv_denom"` the value −67108864/5368709, and the
    printed constant is that value at the extended reals. -/
theorem named : IdealRules.named_const.Statement Cert.KernelIdeal.κ "inv_denom" .f32 0xC1480000#32 ((-67108864 / 5368709 : ℝ) : EReal) :=
  IdealRules.named_const.statement Cert.KernelIdeal.κ "inv_denom" .f32 0xC1480000#32 ((-67108864 / 5368709 : ℝ) : EReal) rfl

theorem preserves : Cert.preserves_Kernel_KernelIdeal := ⟨named, named, named, named⟩

/-- From memories agreeing on the arguments both programs end with the response of every node, of the two tables built
    from those arguments. -/
theorem algebraic (hpay : Cert.KernelIdeal.KV.PayloadIs) (href : ReferenceIs) : Cert.algebraic_KernelIdeal_ReferenceIdeal := by
  intro m ρ m' ρ' _ hagree
  refine ⟨fun c => Cert.KernelIdeal.KV.result m c, Cert.KernelIdeal.KV.run m ρ hpay, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, href, (hagree c).1, (hagree c).2.1, (hagree c).2.2.1, (hagree c).2.2.2,
    Cert.KernelIdeal.Tables.ref_points, Cert.KernelIdeal.Tables.ref_kpoints]
  show _ = Cert.Spec.corr (N := 50000) (Cert.KernelIdeal.Fr.V m c Cert.KernelIdeal.main_v16) (Cert.KernelIdeal.Fr.V m c Cert.KernelIdeal.main_v7)
  rw [Cert.KernelIdeal.Tables.V_points, Cert.KernelIdeal.Tables.V_kpoints]

end Cert.Proof.Bridge

end
-- ==== Proof.KernelPayload.lean ====
/-
  The value the kernel body stores, read at one entry, on the extended reals.

  The body works on a block of a thousand nodes. Each node has four points of three coordinates (the block is
  [1000, 4, 3]); there are 64 kernels of four kernel points each, stored coordinate by coordinate (the table is
  [3, 64, 4]). For point p the body takes the [1000, 1, 3] slice of the block, flattens it to [1000, 3], and for each
  coordinate c spreads column c over [1000, 64, 4] and the [1, 64, 4] slice c of the table over the same shape,
  subtracts, squares, and adds the three squares onto a zero array; it multiplies by the constant 1/D, exponentiates,
  sums the last axis and adds the result onto an accumulator that starts at zero. After the fourth point it multiplies by
  1/16. So entry (r, k) of what is stored is

      ((((0 + s 0) + s 1) + s 2) + s 3) · (1/16),   s p = Σ_{l < 4} exp( (Σ_{c < 3} (x0[r, p, c] − x1[c, k, l])²) · (1/D) ),

  which is the specification's response of kernel k at the node whose four points are row r of the block.

  The steps: the two constants; each re-arrangement of an array read at an entry (a column of a [1000, 3] array spread
  over [1000, 64, 4]; a [1, 64, 4] array spread over [1000, 64, 4]; a [1000, 1, 3] array flattened to [1000, 3]; a
  slice of the block or of the table); the sum over the last axis; each stage of the computation at entry (r, k) in
  terms of one point's term `resp`; and the four stages put together.
-/
import proofs.«162097_j14267881357849_2_alg».proof.Proof.KernelIdealFrame
import proofs.«162097_j14267881357849_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The two constants -/

/-- The named constant of the exponent is the reciprocal 1/D = −67108864 / 5368709 of the specification. -/
theorem kappa_eq : Named.named (F := Ideal) Cert.KernelIdeal.κ "inv_denom" (φ := .f32) 0xC1480000#32 = Cert.Spec.invD :=
  IdealRules.named_const.ideal_named_scalar _ _ _ _ rfl

/-- The final factor: sign 0, exponent field 123, zero fraction, that is 2⁻⁴ = 1/16. -/
theorem sixteenth : Ideal.ofBits .f32 0x3D800000#32 = ((1 / 16 : ℝ) : EReal) := by
  simp [Ideal.ofBits, Ideal.ieee, -EReal.coe_mul]; norm_num

/-! ## Re-arrangements read at an entry -/

section Layout
variable {α : Type}

/-- Column `o` of a [1000, 3] array, viewed as [1000], then [1000, 1, 1], then spread over [1000, 64, 4]: entry
    (r, k, l) is the array's entry (r, o). Going inwards: the spread reads (r, 0, 0); the two changes of shape keep the
    row-major position r; the column slice shifts the second coordinate by `o`. -/
theorem col_apply (o : Nat) (ho : o < 3) (v : S1000x3.Idx → α) (hs : S1000x3.Slices ![0, o] S1000x1)
    (r : Fin 1000) (k : Fin 64) (l : Fin 4) :
    broadcastTo S1000x64x4
        (shapeCast S1000x1x1 (shapeCast S1000 (extractStridedSlice S1000x1 ![0, o] v hs) shapeCasts_S1000x1_S1000)
          shapeCasts_S1000_S1000x1x1)
        broadcasts_S1000x1x1_S1000x64x4 (ix3 r k l)
      = v (ix2 r (⟨o, ho⟩ : Fin 3)) := by
  refine (broadcastTo_apply _ _ (ix3 r k l) (ix3 r (0 : Fin 1) (0 : Fin 1)) fun a => ?_).trans ?_
  · match a with
    | ⟨0, _⟩ => rfl
    | ⟨1, _⟩ => rfl
    | ⟨2, _⟩ => rfl
  refine (shapeCast_apply _ _ (ix3 r (0 : Fin 1) (0 : Fin 1)) (ix1 r) ?_).trans ?_
  · rw [Shape.rowMajor_val_three, Shape.rowMajor_val_one]
    show r.val = (r.val * 1 + 0) * 1 + 0
    omega
  refine (shapeCast_apply _ _ (ix1 r) (ix2 r (0 : Fin 1)) ?_).trans ?_
  · rw [Shape.rowMajor_val_two, Shape.rowMajor_val_one]
    show r.val * 1 + 0 = r.val
    omega
  refine extractStridedSlice_apply _ v hs (ix2 r (0 : Fin 1)) (ix2 r (⟨o, ho⟩ : Fin 3)) fun a => ?_
  match a with
  | ⟨0, _⟩ => show r.val = 0 + r.val; omega
  | ⟨1, _⟩ => show o = o + 0; omega

/-- The first column spread over [1000, 64, 4]. -/
theorem col0_apply (v : S1000x3.Idx → α) (r : Fin 1000) (k : Fin 64) (l : Fin 4) :
    broadcastTo S1000x64x4
        (shapeCast S1000x1x1 (shapeCast S1000 (extractStridedSlice S1000x1 ![0, 0] v slices_S1000x3_o0_0_S1000x1) shapeCasts_S1000x1_S1000)
          shapeCasts_S1000_S1000x1x1)
        broadcasts_S1000x1x1_S1000x64x4 (ix3 r k l) = v (ix2 r (0 : Fin 3)) :=
  col_apply 0 (by decide) v _ r k l

/-- The second column spread over [1000, 64, 4]. -/
theorem col1_apply (v : S1000x3.Idx → α) (r : Fin 1000) (k : Fin 64) (l : Fin 4) :
    broadcastTo S1000x64x4
        (shapeCast S1000x1x1 (shapeCast S1000 (extractStridedSlice S1000x1 ![0, 1] v slices_S1000x3_o0_1_S1000x1) shapeCasts_S1000x1_S1000)
          shapeCasts_S1000_S1000x1x1)
        broadcasts_S1000x1x1_S1000x64x4 (ix3 r k l) = v (ix2 r (1 : Fin 3)) :=
  col_apply 1 (by decide) v _ r k l

/-- The third column spread over [1000, 64, 4]. -/
theorem col2_apply (v : S1000x3.Idx → α) (r : Fin 1000) (k : Fin 64) (l : Fin 4) :
    broadcastTo S1000x64x4
        (shapeCast S1000x1x1 (shapeCast S1000 (extractStridedSlice S1000x1 ![0, 2] v slices_S1000x3_o0_2_S1000x1) shapeCasts_S1000x1_S1000)
          shapeCasts_S1000_S1000x1x1)
        broadcasts_S1000x1x1_S1000x64x4 (ix3 r k l) = v (ix2 r (2 : Fin 3)) :=
  col_apply 2 (by decide) v _ r k l

/-- A [1, 64, 4] array viewed as [64, 4] and back, then spread over [1000, 64, 4]: entry (r, k, l) is the array's entry
    (0, k, l). The change of shape there and back is the identity, and the spread reads 0 on the unit axis. -/
theorem tab_apply (w : S1x64x4.Idx → α) (r : Fin 1000) (k : Fin 64) (l : Fin 4) :
    broadcastTo S1000x64x4
        (shapeCast S1x64x4 (shapeCast S64x4 w shapeCasts_S1x64x4_S64x4) shapeCasts_S64x4_S1x64x4)
        broadcasts_S1x64x4_S1000x64x4 (ix3 r k l)
      = w (ix3 (0 : Fin 1) k l) := by
  rw [shapeCast_shapeCast]
  refine broadcastTo_apply w _ (ix3 r k l) (ix3 (0 : Fin 1) k l) fun a => ?_
  match a with
  | ⟨0, _⟩ => rfl
  | ⟨1, _⟩ => rfl
  | ⟨2, _⟩ => rfl

/-- A [1000, 1, 3] array flattened to [1000, 3]: entry (r, c) is the array's entry (r, 0, c), both at row-major
    position 3r + c. -/
theorem flat_apply (u : S1000x1x3.Idx → α) (r : Fin 1000) (c : Fin 3) :
    shapeCast S1000x3 u shapeCasts_S1000x1x3_S1000x3 (ix2 r c) = u (ix3 r (0 : Fin 1) c) :=
  shapeCast_apply u _ (ix2 r c) (ix3 r (0 : Fin 1) c) (by
    rw [Shape.rowMajor_val_three, Shape.rowMajor_val_two]
    show (r.val * 1 + 0) * 3 + c.val = r.val * 3 + c.val
    omega)

end Layout

section Loads
variable {Val : EltTy → Type} {e : EltTy}

/-- The [1000, 1, 3] slice of the block at point `p`: its entry (r, 0, c) is the block's entry (r, p, c). -/
theorem ld_point (x0 : S1000x4x3.Idx → Val e) (p : Fin 4)
    (inb : ∀ a, (![0, p.val, 0] : Fin 3 → Nat) a + S1000x1x3.size a ≤ S1000x4x3.size a) (r : Fin 1000) (c : Fin 3) :
    View.ld x0 (Rect.unit (s := S1000x4x3) ![0, p.val, 0] S1000x1x3.size inb) (ix3 r (0 : Fin 1) c) = x0 (ix3 r p c) := by
  refine congrArg x0 (funext fun a => Fin.ext ?_)
  match a with
  | ⟨0, _⟩ => show 0 + 1 * r.val = r.val; omega
  | ⟨1, _⟩ => show p.val + 1 * 0 = p.val; omega
  | ⟨2, _⟩ => show 0 + 1 * c.val = c.val; omega

/-- The [1, 64, 4] slice of the table at coordinate `c`: its entry (0, k, l) is the table's entry (c, k, l). -/
theorem ld_coord (x1 : S3x64x4.Idx → Val e) (c : Fin 3)
    (inb : ∀ a, (![c.val, 0, 0] : Fin 3 → Nat) a + S1x64x4.size a ≤ S3x64x4.size a) (k : Fin 64) (l : Fin 4) :
    View.ld x1 (Rect.unit (s := S3x64x4) ![c.val, 0, 0] S1x64x4.size inb) (ix3 (0 : Fin 1) k l) = x1 (ix3 c k l) := by
  refine congrArg x1 (funext fun a => Fin.ext ?_)
  match a with
  | ⟨0, _⟩ => show c.val + 1 * 0 = c.val; omega
  | ⟨1, _⟩ => show 0 + 1 * k.val = k.val; omega
  | ⟨2, _⟩ => show 0 + 1 * l.val = l.val; omega

end Loads

/-! ## The sum over the last axis, and the exponential, at an entry -/

/-- Summing the last axis of a [1000, 64, 4] array, read at (r, k): the sum of its four entries (r, k, ·). -/
theorem lane_sum (src : FVec Ideal S1000x64x4 .f32) (r : Fin 1000) (k : Fin 64) :
    multiReduction (F := Ideal) .add [2] S1000x64 src 0x00000000#32 reduces_S1000x64x4_S1000x64 (.inl rfl) rfl (ix2 r k)
      = ∑ l : Fin 4, src (ix3 r k l) := by
  refine (Ideal.multiReduction_add_single src 0x00000000#32 reduces_S1000x64x4_S1000x64 (.inl rfl) rfl (ix2 r k)).trans ?_
  show ∑ l : Fin 4, src (reduces_S1000x64x4_S1000x64.lift (ix2 r k) l) = ∑ l : Fin 4, src (ix3 r k l)
  refine Finset.sum_congr rfl fun l _ => congrArg src ?_
  funext a
  match a with
  | ⟨0, _⟩ => rfl
  | ⟨1, _⟩ => rfl
  | ⟨2, _⟩ => rfl

/-- The exponential of an array, entry by entry, is the extended reals' exponential. -/
theorem exp_apply {s : Shape} {φ : FTy} (x : FVec Ideal s φ) (i : s.Idx) : exp x i = Ideal.exp (x i) := rfl

/-! ## One point's term -/

/-- What one point adds to the accumulator at a node and a kernel: `pt` is the point's three coordinates and `q0 q1 q2`
    the first, second and third coordinates of the kernel's four kernel points; the sum over the four kernel points of
    the exponential of the squared distance times 1/D. -/
def resp (pt : Fin 3 → EReal) (q0 q1 q2 : Fin 4 → EReal) : EReal :=
  ∑ l : Fin 4, Ideal.exp (((pt 0 - q0 l) * (pt 0 - q0 l) + (pt 1 - q1 l) * (pt 1 - q1 l) + (pt 2 - q2 l) * (pt 2 - q2 l))
    * Cert.Spec.invD)

/-- With the three coordinate rows read off the table, it is the specification's inner sum. -/
theorem resp_eq (row : Fin 3 → EReal) (Kt : S3x64x4.Idx → EReal) (k : Fin 64) :
    resp row (fun l => Kt (ix3 (0 : Fin 3) k l)) (fun l => Kt (ix3 (1 : Fin 3) k l)) (fun l => Kt (ix3 (2 : Fin 3) k l))
      = ∑ l : Fin 4, Ideal.exp (Cert.Spec.dist2 row Kt k l * Cert.Spec.invD) := by
  unfold resp Cert.Spec.dist2
  simp only [Fin.sum_univ_three]

/-! ## The stages of the computation at entry (r, k) -/

/-- The zero array the squares are added onto. -/
theorem pay7_apply (r : Fin 1000) (k : Fin 64) (l : Fin 4) : k0_pay7 (F := Ideal) (ix3 r k l) = 0 := by
  unfold k0_pay7
  simp only [broadcast_apply, Ideal.ofBits_def, Ideal.ofBits_zero_f32]

/-- The fourth point's slice flattened. -/
theorem pay6_apply (u : Vec Ideal S1000x1x3 .f32) (r : Fin 1000) (c : Fin 3) :
    k0_pay6 u (ix2 r c) = u (ix3 r (0 : Fin 1) c) := by
  unfold k0_pay6
  exact flat_apply u r c

/-- The third point's slice flattened. -/
theorem pay4_apply (u : Vec Ideal S1000x1x3 .f32) (r : Fin 1000) (c : Fin 3) :
    k0_pay4 u (ix2 r c) = u (ix3 r (0 : Fin 1) c) := by
  unfold k0_pay4
  exact flat_apply u r c

/-- The first stage: zero plus the first point's term (the zero array under the squares and the zero accumulator both
    drop out). -/
theorem pay2_apply (u : Vec Ideal S1000x1x3 .f32) (w0 w1 w2 : Vec Ideal S1x64x4 .f32) (r : Fin 1000) (k : Fin 64) :
    k0_pay2 u w0 w1 w2 (ix2 r k)
      = resp (fun c => u (ix3 r (0 : Fin 1) c)) (fun l => w0 (ix3 (0 : Fin 1) k l)) (fun l => w1 (ix3 (0 : Fin 1) k l))
          (fun l => w2 (ix3 (0 : Fin 1) k l)) := by
  unfold k0_pay2
  dsimp only
  refine (addf_apply _ _ _).trans ?_
  rw [lane_sum]
  simp only [exp_apply, mulf_apply, addf_apply, subf_apply, broadcast_apply, tab_apply, col0_apply, col1_apply, col2_apply,
    flat_apply, Ideal.ofBits_def, Ideal.ofBits_zero_f32, zero_add, kappa_eq]
  rfl

/-- The second stage: the accumulator plus the second point's term. -/
theorem pay3_apply (a : FVec Ideal S1000x64 .f32) (u : Vec Ideal S1000x1x3 .f32) (w0 w1 w2 : Vec Ideal S1x64x4 .f32)
    (r : Fin 1000) (k : Fin 64) :
    k0_pay3 a u w0 w1 w2 (ix2 r k)
      = a (ix2 r k) + resp (fun c => u (ix3 r (0 : Fin 1) c)) (fun l => w0 (ix3 (0 : Fin 1) k l))
          (fun l => w1 (ix3 (0 : Fin 1) k l)) (fun l => w2 (ix3 (0 : Fin 1) k l)) := by
  unfold k0_pay3
  dsimp only
  refine (addf_apply _ _ _).trans ?_
  rw [lane_sum]
  simp only [exp_apply, mulf_apply, addf_apply, subf_apply, broadcast_apply, tab_apply, col0_apply, col1_apply, col2_apply,
    flat_apply, Ideal.ofBits_def, Ideal.ofBits_zero_f32, zero_add, kappa_eq]
  rfl

/-- The third stage: the accumulator plus the third point's term, the point's slice already flattened. -/
theorem pay5_apply (a : FVec Ideal S1000x64 .f32) (v : FVec Ideal S1000x3 .f32) (w0 w1 w2 : Vec Ideal S1x64x4 .f32)
    (r : Fin 1000) (k : Fin 64) :
    k0_pay5 a v w0 w1 w2 (ix2 r k)
      = a (ix2 r k) + resp (fun c => v (ix2 r c)) (fun l => w0 (ix3 (0 : Fin 1) k l)) (fun l => w1 (ix3 (0 : Fin 1) k l))
          (fun l => w2 (ix3 (0 : Fin 1) k l)) := by
  unfold k0_pay5
  dsimp only
  refine (addf_apply _ _ _).trans ?_
  rw [lane_sum]
  simp only [exp_apply, mulf_apply, addf_apply, subf_apply, broadcast_apply, tab_apply, col0_apply, col1_apply, col2_apply,
    Ideal.ofBits_def, Ideal.ofBits_zero_f32, zero_add, kappa_eq]
  rfl

/-- The last stage: the accumulator plus the fourth point's term, times 1/16; the array `z` under the squares is zero. -/
theorem pay1_apply (a : FVec Ideal S1000x64 .f32) (v : FVec Ideal S1000x3 .f32) (z : FVec Ideal S1000x64x4 .f32)
    (w0 w1 w2 : Vec Ideal S1x64x4 .f32) (hz : ∀ r k l, z (ix3 r k l) = 0) (r : Fin 1000) (k : Fin 64) :
    k0_pay1 a v z w0 w1 w2 (ix2 r k)
      = (a (ix2 r k) + resp (fun c => v (ix2 r c)) (fun l => w0 (ix3 (0 : Fin 1) k l)) (fun l => w1 (ix3 (0 : Fin 1) k l))
          (fun l => w2 (ix3 (0 : Fin 1) k l))) * ((1 / 16 : ℝ) : EReal) := by
  unfold k0_pay1
  dsimp only
  refine (mulf_apply _ _ _).trans ?_
  refine congrArg₂ (· * ·) ((addf_apply _ _ _).trans ?_) ?_
  · rw [lane_sum]
    simp only [exp_apply, mulf_apply, addf_apply, subf_apply, broadcast_apply, tab_apply, col0_apply, col1_apply, col2_apply,
      hz, zero_add, kappa_eq]
    rfl
  · simp only [broadcast_apply, Ideal.ofBits_def, sixteenth]

/-! ## The stored value at entry (r, k) -/

/-- Entry (r, k) of what the body stores is the response of kernel `k` at the node whose four points are row `r` of
    the block: the four stages give (s 0 + s 1 + s 2 + s 3) · (1/16) with `s p` the term of point `p`, each slice read
    back as the block's or the table's own entries, and the four terms in this order are the sum over the points. -/
theorem blockVal_apply (x0 : Vec Ideal S1000x4x3 .f32) (x1 : Vec Ideal S3x64x4 .f32) (r : Fin 1000) (k : Fin 64) :
    Cert.KernelIdeal.Fr.blockVal (F := Ideal) x0 x1 (ix2 r k) = Cert.Spec.rowCorr (fun p c => x0 (ix3 r p c)) x1 k := by
  unfold Cert.KernelIdeal.Fr.blockVal
  rw [pay1_apply _ _ _ _ _ _ pay7_apply r k, pay5_apply, pay3_apply, pay2_apply]
  simp only [pay6_apply, pay4_apply]
  have e0 : ∀ c, View.ld x0 Fr.rp0 (ix3 r (0 : Fin 1) c) = x0 (ix3 r (0 : Fin 4) c) := fun c => ld_point x0 0 _ r c
  have e1 : ∀ c, View.ld x0 Fr.rp1 (ix3 r (0 : Fin 1) c) = x0 (ix3 r (1 : Fin 4) c) := fun c => ld_point x0 1 _ r c
  have e2 : ∀ c, View.ld x0 Fr.rp2 (ix3 r (0 : Fin 1) c) = x0 (ix3 r (2 : Fin 4) c) := fun c => ld_point x0 2 _ r c
  have e3 : ∀ c, View.ld x0 Fr.rp3 (ix3 r (0 : Fin 1) c) = x0 (ix3 r (3 : Fin 4) c) := fun c => ld_point x0 3 _ r c
  have f0 : ∀ l, View.ld x1 Fr.rk0 (ix3 (0 : Fin 1) k l) = x1 (ix3 (0 : Fin 3) k l) := fun l => ld_coord x1 0 _ k l
  have f1 : ∀ l, View.ld x1 Fr.rk1 (ix3 (0 : Fin 1) k l) = x1 (ix3 (1 : Fin 3) k l) := fun l => ld_coord x1 1 _ k l
  have f2 : ∀ l, View.ld x1 Fr.rk2 (ix3 (0 : Fin 1) k l) = x1 (ix3 (2 : Fin 3) k l) := fun l => ld_coord x1 2 _ k l
  simp only [e0, e1, e2, e3, f0, f1, f2, resp_eq]
  unfold Cert.Spec.rowCorr
  exact congrArg (· * ((1 / 16 : ℝ) : EReal))
    (Fin.sum_univ_four fun p => ∑ l : Fin 4, Ideal.exp (Cert.Spec.dist2 (fun c => x0 (ix3 r p c)) x1 k l * Cert.Spec.invD)).symm

end Cert.KernelIdeal.Pay

end
-- ==== Proof.LibSumTwoAxes.lean ====
/-
  A sum over two of the four axes of an array, read index by index.

  Take an array `x` with four axes of extents `A, B, C, D` and add up its entries over the second and the fourth axis.
  The result has two axes, of extents `A` and `C`, and its entry `(n, k)` is by definition the starting value plus the sum
  of `x` over the set of all four-coordinate indices whose first coordinate is `n` and whose third coordinate is `k`
  (the indices that "drop" to `(n, k)` once the second and fourth coordinates are forgotten).

  That set is in bijection with the pairs `(p, l)`, `p < B`, `l < D`, through `(p, l) ↦ (n, p, k, l)`; so the entry is

      init + Σ_{p < B} Σ_{l < D} x (n, p, k, l).

  Nothing here depends on the extents, so it is stated for arbitrary ones: no axis is ever enumerated.
-/
import Idealize.ShloMosaic.PureOps.Ideal
import Idealize.ShloMosaic.PureOps.Ideal.Laws
import Idealize.ShloMosaic.PureOps.Reduce
import Idealize.ShloMosaic.Lib.ValueIdx

noncomputable section

namespace Cert.Lib.SumTwoAxes

open Idealize.ShloMosaic Idealize.ShloMosaic.ValueIdx

/-- Forgetting the second and fourth coordinates of `(i₀, i₁, i₂, i₃)` leaves `i₀` in the first place … -/
theorem drop13_zero {A B C D : Nat}
    (h : (⟨4, ![A, B, C, D]⟩ : Shape).ReducesTo [1, 3] ⟨2, ![A, C]⟩)
    (i : (⟨4, ![A, B, C, D]⟩ : Shape).Idx) : (h.drop i 0 : Nat) = i 0 := rfl

/-- … and `i₂` in the second: the kept axes are the first and the third, in that order. -/
theorem drop13_one {A B C D : Nat}
    (h : (⟨4, ![A, B, C, D]⟩ : Shape).ReducesTo [1, 3] ⟨2, ![A, C]⟩)
    (i : (⟨4, ![A, B, C, D]⟩ : Shape).Idx) : (h.drop i 1 : Nat) = i 2 := rfl

/-- The sum over the second and fourth axes at `(n, k)`: the starting value plus the double sum, over `p` and `l`, of
    the entries `(n, p, k, l)`. The indices that drop to `(n, k)` are exactly the `(n, p, k, l)`: such an index does drop
    to `(n, k)`; two of them with equal images have equal `p` and equal `l`; and an index `i` that drops to `(n, k)` has
    `i₀ = n` and `i₂ = k`, so it is `(n, i₁, k, i₃)`. -/
theorem hostReduceAdd_axes13 {A B C D : Nat}
    (h : (⟨4, ![A, B, C, D]⟩ : Shape).ReducesTo [1, 3] ⟨2, ![A, C]⟩)
    (x : (⟨4, ![A, B, C, D]⟩ : Shape).Idx → EReal) (init : EReal) (n : Fin A) (k : Fin C) :
    Ideal.hostReduceAdd h x init (ix2 n k) = init + ∑ p : Fin B, ∑ l : Fin D, x (ix4 n p k l) := by
  unfold Ideal.hostReduceAdd
  congr 1
  rw [← Finset.sum_product']
  symm
  refine Finset.sum_bij (fun (q : Fin B × Fin D) _ => ix4 n q.1 k q.2) ?_ ?_ ?_ ?_
  · -- (n, p, k, l) drops to (n, k)
    intro q _
    simp only [Finset.mem_filter, Finset.mem_univ, true_and]
    funext b
    refine Fin.ext ?_
    match b with
    | ⟨0, _⟩ => exact drop13_zero h _
    | ⟨1, _⟩ => exact drop13_one h _
  · -- (p, l) is read off the second and fourth coordinates
    intro q1 _ q2 _ heq
    have h1 := congrFun heq 1
    have h3 := congrFun heq 3
    exact Prod.ext h1 h3
  · -- an index that drops to (n, k) is (n, i₁, k, i₃)
    intro i hi
    simp only [Finset.mem_filter, Finset.mem_univ, true_and] at hi
    refine ⟨(i 1, i 3), Finset.mem_univ _, ?_⟩
    have h0 : (i 0 : Nat) = n := by
      rw [← drop13_zero h i, hi]; rfl
    have h2 : (i 2 : Nat) = k := by
      rw [← drop13_one h i, hi]; rfl
    funext a
    refine Fin.ext ?_
    match a with
    | ⟨0, _⟩ => exact h0.symm
    | ⟨1, _⟩ => rfl
    | ⟨2, _⟩ => exact h2.symm
    | ⟨3, _⟩ => rfl
  · intro q _
    rfl

end Cert.Lib.SumTwoAxes

end
-- ==== Proof.RefValue.lean ====
/-
  The reference program's result, entry by entry, on the extended reals.

  From the table `P` of node points (fifty thousand nodes, four points each, three coordinates each) and the table `K` of
  kernel points (three coordinates, 64 kernels, four kernel points each) the program forms, for every node `n`, point
  `p`, coordinate `c`, kernel `k` and kernel point `l`, the difference `P(n,p,c) − K(c,k,l)`, squares it, sums the squares
  over the three coordinates `c`, divides by the constant `D`, exponentiates, sums over the four points `p` and the four
  kernel points `l`, and divides by sixteen:

      out(n, k) = ( Σ_{p<4} Σ_{l<4} exp( ( Σ_{c<3} (P(n,p,c) − K(c,k,l))² ) / D ) ) / 16.

  `D` is the single-precision number with sign bit set, exponent field 123 and fraction field 2348810, that is
  −(2²³ + 2348810) · 2^(123−127−23) = −10737418 / 2²⁷ = −5368709 / 2²⁶; sixteen is the number with exponent field 131 and
  fraction 0, that is 2²³ · 2^(131−127−23) = 2⁴. Both divisors are nonzero reals, so on the extended reals each division
  is the product with the reciprocal: 1/D = −67108864 / 5368709 and 1/16. Both sums start from the number zero. This is
  the specified function, term for term and in the same order of summation.
-/
import proofs.«162097_j14267881357849_2_alg».proof.Proof.Gen.ReferenceIdeal.Read
import proofs.«162097_j14267881357849_2_alg».proof.Proof.Spec
import proofs.«162097_j14267881357849_2_alg».proof.Proof.LibSumTwoAxes
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## The two constants -/

/-- The pattern with exponent field 131 and zero fraction denotes 2²³ · 2⁻¹⁹ = 16. -/
theorem ofBits_sixteen : Ideal.ofBits .f32 0x41800000#32 = ((16 : ℝ) : EReal) := by
  simp [Ideal.ofBits, Ideal.ieee, -EReal.coe_mul]; norm_num

/-- The pattern with the sign bit set, exponent field 123 and fraction field 2348810 denotes
    −(2²³ + 2348810) · 2⁻²⁷ = −5368709 / 67108864, the single-precision number nearest −0.08. -/
theorem ofBits_D : Ideal.ofBits .f32 0xBDA3D70A#32 = ((-5368709 / 67108864 : ℝ) : EReal) := by
  simp [Ideal.ofBits, Ideal.ieee, -EReal.coe_mul]; norm_num

/-! ## The sum over points and kernel points -/

/-- The sum over the second and fourth axes of the array of exponentials, at node `n` and kernel `k`: the starting
    value plus the double sum over the point `p` and the kernel point `l` of the entry `(n, p, k, l)`. -/
theorem val_main_v27_apply (x0 : (⟨S50000x3, .f32⟩ : BufTy).Contents (Elt Ideal))
    (x1 : (⟨S50000x3, .i32⟩ : BufTy).Contents (Elt Ideal)) (x2 x3 : (⟨S1x64x4, .f32⟩ : BufTy).Contents (Elt Ideal))
    (n : Fin 50000) (k : Fin 64) :
    Read.val_main_v27 (F := Ideal) x0 x1 x2 x3 (ix2 n k)
      = (Read.val_main_cst_2 (F := Ideal)) (Shape.Idx.first h_S_)
        + ∑ p : Fin 4, ∑ l : Fin 4, Read.val_main_v26 (F := Ideal) x0 x1 x2 x3 (ix4 n p k l) := by
  unfold Read.val_main_v27
  generalize Read.val_main_v26 (F := Ideal) x0 x1 x2 x3 = y
  simp only [Host.reduceAdd, Ideal.hostReduceAdd_def]
  exact Cert.Lib.SumTwoAxes.hostReduceAdd_axes13 reducesTo_S50000x4x64x4_S50000x64_d1_3 y _ n k

/-! ## Where the two tables are read -/

/-- Entry `(n, p, c, k, l)` of the broadcast table of node points is entry `(n, p, c)` of the table: the two broadcasts
    only add the axes `k` and `l`. -/
theorem idx_node (n : Fin 50000) (p : Fin 4) (k : Fin 64) (l : Fin 4) (c : Fin 3) :
    idx_main_v17 (idx_main_v19 (idx_main_v23 (ix4 n p k l) c)) = ix3 n p c :=
  funext fun a => Fin.ext (by match a with | ⟨0, _⟩ => rfl | ⟨1, _⟩ => rfl | ⟨2, _⟩ => rfl)

/-- Entry `(n, p, c, k, l)` of the broadcast table of kernel points is entry `(c, k, l)` of the table: the two
    broadcasts only add the axes `n` and `p`. -/
theorem idx_kernel (n : Fin 50000) (p : Fin 4) (k : Fin 64) (l : Fin 4) (c : Fin 3) :
    idx_main_v18 (idx_main_v20 (idx_main_v23 (ix4 n p k l) c)) = ix3 c k l :=
  funext fun a => Fin.ext (by match a with | ⟨0, _⟩ => rfl | ⟨1, _⟩ => rfl | ⟨2, _⟩ => rfl)

/-! ## The result is the specified function -/

/-- Entry `(n, k)` of the result is node `n`'s response of kernel `k`: reading each operation at an index gives
    `(Σ_p Σ_l exp((Σ_c (P(n,p,c) − K(c,k,l))²) / D)) / 16` with both sums started at zero, and dividing by the nonzero
    reals `D` and `16` is multiplying by `−67108864 / 5368709` and by `1 / 16`. -/
theorem ref_eq (x0 : (⟨S50000x3, .f32⟩ : BufTy).Contents (Elt Ideal)) (x1 : (⟨S50000x3, .i32⟩ : BufTy).Contents (Elt Ideal))
    (x2 x3 : (⟨S1x64x4, .f32⟩ : BufTy).Contents (Elt Ideal)) :
    Read.val_main_v29 (F := Ideal) x0 x1 x2 x3
      = Cert.Spec.corr (Read.val_main_v16 (F := Ideal) x0 x1) (Read.val_main_v7 (F := Ideal) x2 x3) := by
  funext j
  obtain ⟨n, k, rfl⟩ : ∃ (n : Fin 50000) (k : Fin 64), j = ix2 n k := ⟨j 0, j 1, eq_ix2 j⟩
  rw [Cert.Spec.corr_apply]
  -- the last division and the sum over p and l, at (n, k)
  rw [val_main_v29_apply, val_main_v27_apply, val_main_v28_apply, val_main_cst_3_apply, val_main_cst_2_apply]
  -- each term of that sum, down to the two tables
  simp only [val_main_v26_apply, val_main_v25_apply, val_main_v24_apply, val_main_cst_1_apply, val_main_v23_apply,
    val_main_cst_apply, val_main_v22_apply, val_main_v21_apply, val_main_v19_apply, val_main_v17_apply,
    val_main_v20_apply, val_main_v18_apply, idx_node, idx_kernel]
  -- the operations on extended reals, the two zeros and the two constants
  simp only [Ideal.subf_def, Ideal.mulf_def, Ideal.hostDivf_def, Ideal.hostUnary_exp_def, Ideal.ofBits_def,
    Ideal.ofBits_zero_f32, zero_add, ofBits_D, ofBits_sixteen]
  -- division by a nonzero real is multiplication by its reciprocal
  have hD : (-5368709 / 67108864 : ℝ) ≠ 0 := by norm_num
  have h16 : (16 : ℝ) ≠ 0 := by norm_num
  have hinv : (1 / (-5368709 / 67108864) : ℝ) = -67108864 / 5368709 := by norm_num
  simp only [Ideal.div_coe h16, Ideal.div_coe hD, hinv]
  rfl

end Cert.ReferenceIdeal.RefValue

end
-- ==== Proof.lean ====
/-
  Two programs compute, for each of 50000 mesh nodes and each of 64 kernels, the response

      (1/16) · Σ_{p < 4} Σ_{l < 4} exp( ‖point p of the node − kernel point (k, l)‖² / D ),   D the single-precision number nearest −0.08,

  the four points of a node being its own normal and those of its three neighbours, the kernel points lying on the
  unit sphere at angles θ, φ. Both first build the same two tables from the same arguments. The kernel then works on
  blocks of a thousand nodes, multiplies by the reciprocal of `D` (a constant of the body, named `"inv_denom"`: at the
  extended reals exactly −67108864/5368709 = 1/D) and by 1/16, and adds the four points' sums one after another; the
  reference divides by `D` and by 16 and sums over points and kernel points at once. On the extended reals dividing
  by a nonzero real is multiplying by its reciprocal, and finite sums may be regrouped freely, so the two results
  are the same function of the arguments, for every input: the finiteness precondition is not used.

  The modules: `Spec` (the response), `KernelIdealFrame` / `KernelFrame` (the two kernel programs' launches run),
  `KernelPayload` (the value the body stores, read at an index), `KernelValue` (from blocks to the whole array),
  `HostTables` (the two tables), `RefValue` (the reference read at an index), `Bridge` (the claims).
-/
import proofs.«162097_j14267881357849_2_alg».proof.Defs
import proofs.«162097_j14267881357849_2_alg».proof.Proof.Gen.Kernel
import proofs.«162097_j14267881357849_2_alg».proof.Proof.Gen.KernelIdeal
import proofs.«162097_j14267881357849_2_alg».proof.Proof.Gen.ReferenceIdeal
import proofs.«162097_j14267881357849_2_alg».proof.Proof.Gen.Pre_finite_inputs
import proofs.«162097_j14267881357849_2_alg».proof.Proof.Bridge
import proofs.«162097_j14267881357849_2_alg».proof.Proof.KernelPayload
import proofs.«162097_j14267881357849_2_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Bridge.frame_k, Bridge.frame_ki, Bridge.frame_ri, Bridge.preserves,
  Bridge.algebraic Cert.KernelIdeal.Pay.blockVal_apply Cert.ReferenceIdeal.RefValue.ref_eq⟩

end Cert.Proof

end
